-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩

abbrev nBuf : Space → Nat
  | .hbm => 84
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x40, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x40, .f32⟩
  | .hbm, ⟨74, _⟩ => ⟨S1700000x1, .f32⟩
  | .hbm, ⟨75, _⟩ => ⟨S1700000x40, .f32⟩
  | .hbm, ⟨76, _⟩ => ⟨S1700000x40, .f32⟩
  | .hbm, ⟨77, _⟩ => ⟨S_, .f32⟩
  | .hbm, ⟨78, _⟩ => ⟨S100000x40, .f32⟩
  | .hbm, ⟨79, _⟩ => ⟨S1700000x1, .i32⟩
  | .hbm, ⟨80, _⟩ => ⟨S100000x40, .f32⟩
  | .hbm, ⟨81, _⟩ => ⟨S1x40, .f32⟩
  | .hbm, ⟨82, _⟩ => ⟨S100000x40, .f32⟩
  | .hbm, ⟨83, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x40, .f32⟩
  | .local _ .vmem, ⟨8, _⟩ => ⟨S5000x40, .f32⟩
  | .local _ .vmem, ⟨9, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call0_cst : Ref sig .tc := ⟨.hbm, 61, rfl⟩
abbrev main_call0_v0 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x40, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x40, .f32⟩
  | .hbm, ⟨74, _⟩ => ⟨S1700000x1, .f32⟩
  | .hbm, ⟨75, _⟩ => ⟨S1700000x40, .f32⟩
  | .hbm, ⟨76, _⟩ => ⟨S1700000x40, .f32⟩
  | .hbm, ⟨77, _⟩ => ⟨S_, .f32⟩
  | .hbm, ⟨78, _⟩ => ⟨S100000x40, .f32⟩
  | .hbm, ⟨79, _⟩ => ⟨S1700000x1, .i32⟩
  | .hbm, ⟨80, _⟩ => ⟨S100000x40, .f32⟩
  | .hbm, ⟨81, _⟩ => ⟨S1x40, .f32⟩
  | .hbm, ⟨82, _⟩ => ⟨S100000x40, .f32⟩
  | .hbm, ⟨83, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call0_cst : Ref sig .tc := ⟨.hbm, 61, rfl⟩
abbrev main_call0_v0 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.RowProduct.lean ====
/-
  The dense product both programs compute twice. An array `a` of `n` rows of 128 entries times an array `w` of 128
  rows of `p` entries: entry (r, q) of the product is the sum over the shared axis k of a(r, k) · w(k, q), on the
  extended reals. The sum is a finite sum in a commutative monoid, so its order and grouping do not matter, and no
  finiteness of the entries is used anywhere.

  The one law the certificate needs is about rows: row r of the product reads row r of `a` and nothing else of `a`.
  So if the rows of a block `x` are rows of `a` (row r of the block is row ρ(r) of the array), the block times `w`
  is the corresponding rows of `a` times `w` (`rowProd_rows`). A kernel that walks `a` in blocks of rows and
  multiplies each by the whole of `w` therefore writes, block by block, the rows of the one product.
-/
import Idealize.ShloMosaic.Lib.ValueIdx
import Idealize.ShloMosaic.PureOps.Ideal.Laws

noncomputable section

open scoped BigOperators

namespace Cert.Dense

open Idealize.ShloMosaic Idealize.ShloMosaic.ValueIdx

/-- The product of an `n × 128` array and a `128 × p` array: entry (r, q) is `∑ k, a (r, k) * w (k, q)`. -/
def rowProd {n p : Nat} (a : FVec Ideal ⟨2, ![n, 128]⟩ .f32) (w : FVec Ideal ⟨2, ![128, p]⟩ .f32) :
    FVec Ideal ⟨2, ![n, p]⟩ .f32 :=
  fun i => ∑ k : Fin 128, a (ix2 (⟨(i 0).val, idx2_lt0 i⟩ : Fin n) k) * w (ix2 k (⟨(i 1).val, idx2_lt1 i⟩ : Fin p))

/-- The product at an entry given by its coordinates. -/
theorem rowProd_ix2 {n p : Nat} (a : FVec Ideal ⟨2, ![n, 128]⟩ .f32) (w : FVec Ideal ⟨2, ![128, p]⟩ .f32)
    (r : Fin n) (q : Fin p) : rowProd a w (ix2 r q) = ∑ k : Fin 128, a (ix2 r k) * w (ix2 k q) := rfl

/-- ROWS OF A PRODUCT. If row `j 0` of the block `x` is row `i 0` of the array `a` and column `j 1` of `y` is column
    `i 1` of `w`, entry `j` of `x` times `y` is entry `i` of `a` times `w`: term by term the same sum. -/
theorem rowProd_rows {n p n' p' : Nat} (a : FVec Ideal ⟨2, ![n, 128]⟩ .f32) (w : FVec Ideal ⟨2, ![128, p]⟩ .f32)
    (x : FVec Ideal ⟨2, ![n', 128]⟩ .f32) (y : FVec Ideal ⟨2, ![128, p']⟩ .f32)
    (j : (⟨2, ![n', p']⟩ : Shape).Idx) (i : (⟨2, ![n, p]⟩ : Shape).Idx)
    (hx : ∀ k : Fin 128, x (ix2 (⟨(j 0).val, idx2_lt0 j⟩ : Fin n') k) = a (ix2 (⟨(i 0).val, idx2_lt0 i⟩ : Fin n) k))
    (hy : ∀ k : Fin 128, y (ix2 k (⟨(j 1).val, idx2_lt1 j⟩ : Fin p')) = w (ix2 k (⟨(i 1).val, idx2_lt1 i⟩ : Fin p))) :
    rowProd x y j = rowProd a w i := by
  unfold rowProd
  exact Finset.sum_congr rfl fun k _ => by rw [hx k, hy k]

end Cert.Dense

end
-- ==== Proof.Rows0.lean ====
/-
  REGION 0 of the kernel, at the extended reals, for ANY contents `V` of the buffers when the region is entered:
  the region's result array ends holding the dense product (`Cert.Dense.rowProd`) of the region's two operand arrays
  as the region finds them.

  The grid walks the left operand in 20 blocks of 5000 rows; at every point the body loads the point's 5000 × 128
  block and the whole 128 × 128 right operand, narrows both to bf16 — the identity on extended reals —, multiplies
  them into a zero accumulator (0 + the sum = the sum, on every extended real) and stores the 5000 × 128 result,
  which is written back as block t of the result array. Row r of block t is row 5000·t + r of the array, so by the
  row law of the product (`rowProd_rows`) what point t writes back is block t of the ONE product of the whole
  arrays; the 20 blocks tile the 100000 rows (row r lies in block r / 5000), so the array ends holding that product.
-/
import proofs.«180636_j73332271612103_1_alg».proof.Proof.Gen.KernelIdeal.Frame
import proofs.«180636_j73332271612103_1_alg».proof.Proof.RowProduct
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Rows0

open Idealize.ShloMosaic Idealize.ShloMosaic.TcCoe Idealize.ShloMosaic.ValueIdx Idealize.SL.Sem
open Idealize.ShloMosaic.Pipeline (Dat)
open Cert.KernelIdeal Cert.KernelIdeal.Gen Cert.Dense

theorem hz : (![0, 0] : Fin 2 → Nat) = fun _ => 0 := funext fun a => by fin_cases a <;> rfl

/-! ## The body's arithmetic is the product of its two loads -/

/-- An index of the left operand, under the contraction: its row is the result's row, -/
theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- its column the contracted coordinate. -/
theorem lhs_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- An index of the right operand: its row is the contracted coordinate, -/
theorem rhs_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- its column the result's column. -/
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- THE PAYLOAD: what the body stores is the product of the block it loaded and the right operand it loaded. The
    narrowing to bf16 is the identity, the accumulator is zero, and the contraction's one axis is re-indexed by its
    coordinate `k : Fin 128`. -/
theorem pay_eq (x0 : Vec Ideal S5000x128 .f32) (x1 : Vec Ideal S128x128 .f32) :
    k0_pay1 (F := Ideal) x0 x1 = rowProd x0 x1 := by
  funext j
  unfold k0_pay1
  refine (Ideal.matmul_constant_zero_apply dot_S5000x128_S128x128_S5000x128_1_0_0_1_n_n none _ _ j).trans ?_
  rw [← Equiv.sum_comp (contrEquiv1 dot_S5000x128_S128x128_S5000x128_1_0_0_1_n_n 128 rfl rfl).symm]
  unfold rowProd
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx j ((contrEquiv1 dot_S5000x128_S128x128_S5000x128_1_0_0_1_n_n 128 rfl rfl).symm k)
      = ix2 (⟨(j 0).val, idx2_lt0 j⟩ : Fin 5000) k := funext fun a => Fin.ext (by
    match a with
    | ⟨0, _⟩ => exact lhs_row _ _
    | ⟨1, _⟩ => exact (lhs_col _ _).trans hk)
  have er : dot_S5000x128_S128x128_S5000x128_1_0_0_1_n_n.rhsIdx j ((contrEquiv1 dot_S5000x128_S128x128_S5000x128_1_0_0_1_n_n 128 rfl rfl).symm k)
      = ix2 k (⟨(j 1).val, idx2_lt1 j⟩ : Fin 128) := funext fun a => Fin.ext (by
    match a with
    | ⟨0, _⟩ => exact (rhs_row _ _).trans hk
    | ⟨1, _⟩ => exact rhs_col _ _)
  rw [el, er]
  rfl

/-! ## From blocks to the array -/

variable (V : (c : Dev nD) → (b : Ref sig .tc) → Buf (Elt Ideal) ((c : Thread nD τ).loc b))

/-- The printed index maps over the grid: point t's block of the left operand and of the result is block t along the
    rows and the only block along the columns; the right operand's only block is block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the product of the two operand arrays as the region finds them. -/
theorem flushed_eq (c : Dev nD) (t : Fin cfg0.N) :
    (dat0 V c).flushed 2 t
      = ((cfg0.win 2).blk t).view.read (Elt Ideal) (rowProd (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [pay_eq]
  obtain ⟨e0, e1, e2, e3, e4, e5⟩ := idx_facts t
  funext j
  rw [View.read_apply]
  refine rowProd_rows (V c main_arg0) (V c main_arg2) (iblk0 V c 0 t) (iblk0 V c 1 t) j _ (fun k => ?_) (fun k => ?_)
  · show V c main_arg0 (((cfg0.win 0).blk t).view.emb (ix2 (⟨(j 0).val, idx2_lt0 j⟩ : Fin 5000) k)) = V c main_arg0 _
    congr 1
    funext a
    apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg2 (((cfg0.win 1).blk t).view.emb (ix2 k (⟨(j 1).val, idx2_lt1 j⟩ : Fin 128))) = V c main_arg2 _
    congr 1
    funext a
    apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- THE COVER: row `r` of the result array lies in the block of point `r / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  obtain ⟨e0, e1, e2, e3, e4, e5⟩ := idx_facts ⟨(i 0).val / 5000, by rw [hN]; omega⟩
  rw [mem_blk]
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- THE RESULT ARRAY after the region: the product of the two operand arrays as the region finds them. -/
theorem final (c : Dev nD) :
    (dat0 V c).arrAt 2 cfg0.N = rowProd (V c main_arg0) (V c main_arg2) :=
  (dat0 V c).arrAt_eq_of_cover 2 (rowProd (V c main_arg0) (V c main_arg2)) (fun t _ => flushed_eq V c t) cover

end Cert.KernelIdeal.Rows0

end
-- ==== Proof.Rows1.lean ====
/-
  REGION 1 of the kernel, at the extended reals, for ANY contents `V` of the buffers when the region is entered:
  the region's result array ends holding the dense product (`Cert.Dense.rowProd`) of the region's two operand arrays
  as the region finds them.

  The grid walks the left operand in 20 blocks of 5000 rows; at every point the body loads the point's 5000 × 128
  block and the whole 128 × 40 right operand, recasts the block to its own shape (nothing moves), narrows both to bf16 — the identity on extended reals —, multiplies
  them into a zero accumulator (0 + the sum = the sum, on every extended real) and stores the 5000 × 40 result,
  which is written back as block t of the result array. Row r of block t is row 5000·t + r of the array, so by the
  row law of the product (`rowProd_rows`) what point t writes back is block t of the ONE product of the whole
  arrays; the 20 blocks tile the 100000 rows (row r lies in block r / 5000), so the array ends holding that product.
-/
import proofs.«180636_j73332271612103_1_alg».proof.Proof.Gen.KernelIdeal.Frame
import proofs.«180636_j73332271612103_1_alg».proof.Proof.RowProduct
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Rows1

open Idealize.ShloMosaic Idealize.ShloMosaic.TcCoe Idealize.ShloMosaic.ValueIdx Idealize.SL.Sem
open Idealize.ShloMosaic.Pipeline (Dat)
open Cert.KernelIdeal Cert.KernelIdeal.Gen Cert.Dense

theorem hz : (![0, 0] : Fin 2 → Nat) = fun _ => 0 := funext fun a => by fin_cases a <;> rfl

/-! ## The body's arithmetic is the product of its two loads -/

/-- An index of the left operand, under the contraction: its row is the result's row, -/
theorem lhs_row (j : S5000x40.Idx) (q : dot_S5000x128_S128x40_S5000x40_1_0_0_1_n_n.contr.Idx) :
    (dot_S5000x128_S128x40_S5000x40_1_0_0_1_n_n.lhsIdx j q 0).val = (j 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
/-- its column the contracted coordinate. -/
theorem lhs_col (j : S5000x40.Idx) (q : dot_S5000x128_S128x40_S5000x40_1_0_0_1_n_n.contr.Idx) :
    (dot_S5000x128_S128x40_S5000x40_1_0_0_1_n_n.lhsIdx j q 1).val = (q ⟨0, by decide⟩).val :=
  dot_S5000x128_S128x40_S5000x40_1_0_0_1_n_n.lhsIdx_val_of_single rfl j q
/-- An index of the right operand: its row is the contracted coordinate, -/
theorem rhs_row (j : S5000x40.Idx) (q : dot_S5000x128_S128x40_S5000x40_1_0_0_1_n_n.contr.Idx) :
    (dot_S5000x128_S128x40_S5000x40_1_0_0_1_n_n.rhsIdx j q 0).val = (q ⟨0, by decide⟩).val :=
  dot_S5000x128_S128x40_S5000x40_1_0_0_1_n_n.rhsIdx_val_of_single rfl j q
/-- its column the result's column. -/
theorem rhs_col (j : S5000x40.Idx) (q : dot_S5000x128_S128x40_S5000x40_1_0_0_1_n_n.contr.Idx) :
    (dot_S5000x128_S128x40_S5000x40_1_0_0_1_n_n.rhsIdx j q 1).val = (j 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- THE PAYLOAD: what the body stores is the product of the block it loaded and the right operand it loaded. The
    narrowing to bf16 is the identity, the accumulator is zero, and the contraction's one axis is re-indexed by its
    coordinate `k : Fin 128`. -/
theorem pay_eq (x0 : Vec Ideal S5000x128 .f32) (x1 : Vec Ideal S128x40 .f32) :
    k1_pay1 (F := Ideal) x0 x1 = rowProd x0 x1 := by
  funext j
  unfold k1_pay1
  rw [shapeCast_self]
  refine (Ideal.matmul_constant_zero_apply dot_S5000x128_S128x40_S5000x40_1_0_0_1_n_n none _ _ j).trans ?_
  rw [← Equiv.sum_comp (contrEquiv1 dot_S5000x128_S128x40_S5000x40_1_0_0_1_n_n 128 rfl rfl).symm]
  unfold rowProd
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx j ((contrEquiv1 dot_S5000x128_S128x40_S5000x40_1_0_0_1_n_n 128 rfl rfl).symm k)
      = ix2 (⟨(j 0).val, idx2_lt0 j⟩ : Fin 5000) k := funext fun a => Fin.ext (by
    match a with
    | ⟨0, _⟩ => exact lhs_row _ _
    | ⟨1, _⟩ => exact (lhs_col _ _).trans hk)
  have er : dot_S5000x128_S128x40_S5000x40_1_0_0_1_n_n.rhsIdx j ((contrEquiv1 dot_S5000x128_S128x40_S5000x40_1_0_0_1_n_n 128 rfl rfl).symm k)
      = ix2 k (⟨(j 1).val, idx2_lt1 j⟩ : Fin 40) := funext fun a => Fin.ext (by
    match a with
    | ⟨0, _⟩ => exact (rhs_row _ _).trans hk
    | ⟨1, _⟩ => exact rhs_col _ _)
  rw [el, er]
  rfl

/-! ## From blocks to the array -/

variable (V : (c : Dev nD) → (b : Ref sig .tc) → Buf (Elt Ideal) ((c : Thread nD τ).loc b))

/-- The printed index maps over the grid: point t's block of the left operand and of the result is block t along the
    rows and the only block along the columns; the right operand's only block is block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the product of the two operand arrays as the region finds them. -/
theorem flushed_eq (c : Dev nD) (t : Fin cfg1.N) :
    (dat1 V c).flushed 2 t
      = ((cfg1.win 2).blk t).view.read (Elt Ideal) (rowProd (V c main_v45) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x40) hz]
  rw [pay_eq]
  obtain ⟨e0, e1, e2, e3, e4, e5⟩ := idx_facts t
  funext j
  rw [View.read_apply]
  refine rowProd_rows (V c main_v45) (V c main_arg4) (iblk1 V c 0 t) (iblk1 V c 1 t) j _ (fun k => ?_) (fun k => ?_)
  · show V c main_v45 (((cfg1.win 0).blk t).view.emb (ix2 (⟨(j 0).val, idx2_lt0 j⟩ : Fin 5000) k)) = V c main_v45 _
    congr 1
    funext a
    apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_arg4 (((cfg1.win 1).blk t).view.emb (ix2 k (⟨(j 1).val, idx2_lt1 j⟩ : Fin 40))) = V c main_arg4 _
    congr 1
    funext a
    apply Fin.ext
    match a with
    | ⟨0, _⟩ => show win1_1.index t (0 : Fin 2) * 128 + 1 * k.val = k.val; omega
    | ⟨1, _⟩ => show win1_1.index t (1 : Fin 2) * 40 + 1 * (j 1).val = win1_2.index t (1 : Fin 2) * 40 + 1 * (j 1).val; omega

/-- An index of the result array is in point `t`'s block iff each coordinate is in the block's range on its axis. -/
theorem mem_blk (t : Fin cfg1.N) (i : S100000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v46).slice (win1_2.rect t)).set ↔ _
  rw [View.set_slice_whole, Rect.mem_set_unit]
  exact Iff.rfl

/-- THE COVER: row `r` of the result array lies in the block of point `r / 5000`. -/
theorem cover (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  have hN : cfg1.N = 20 := N_1
  refine ⟨⟨(i 0).val / 5000, by rw [hN]; omega⟩, flush1_2 _, ?_⟩
  obtain ⟨e0, e1, e2, e3, e4, e5⟩ := idx_facts ⟨(i 0).val / 5000, by rw [hN]; omega⟩
  rw [mem_blk]
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 40 ≤ (i 1).val ∧ (i 1).val < win1_2.index _ (1 : Fin 2) * 40 + 40
    rw [e5]; omega

/-- THE RESULT ARRAY after the region: the product of the two operand arrays as the region finds them. -/
theorem final (c : Dev nD) :
    (dat1 V c).arrAt 2 cfg1.N = rowProd (V c main_v45) (V c main_arg4) :=
  (dat1 V c).arrAt_eq_of_cover 2 (rowProd (V c main_v45) (V c main_arg4)) (fun t _ => flushed_eq V c t) cover

end Cert.KernelIdeal.Rows1

end
-- ==== Proof.Graph.lean ====
/-
  The part of the computation the two programs SHARE, named once and never opened: the graph glue around the two
  dense products. Both programs are a two-layer graph convolution over n = 100000 nodes and 1600000 edges `e`:

    src, dst     the edges' end points with a self loop appended for every node (1700000 entries each);
    deg          the number of edges arriving at each node (a scatter-add of ones over dst);
    norm         deg(src)^(-1/2) · deg(dst)^(-1/2), one weight per edge;
    spread h b   for an array h of per-node rows: gather the rows at src, scale each by its edge's norm, scatter-add
                 them at dst, add the bias b to every row;

  and the result is  spread (relu (spread (x · W1) b1) · W2) b2, the two products "·" being the only steps the programs
  do differently (a row-blocked kernel against one `dot_general`). Every function here is the composition of the
  host operations exactly as both programs print them (the same operations, the same literals, in the same order), for
  any float instance; the certificate only ever uses that equal arguments give equal results.
-/
import proofs.«180636_j73332271612103_1_alg».proof.ReferenceIdeal
import proofs.«180636_j73332271612103_1_alg».proof.Proof.Gen.ReferenceIdeal

noncomputable section

namespace Cert.ReferenceIdeal.Graph

open Cert.ReferenceIdeal Cert.ReferenceIdeal.Gen Idealize.ShloMosaic

variable {F : FTy → Type} [FloatOps F]

/-- Row `r` (0: sources, 1: targets) of the edge array, then one self loop per node. -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node-index array as a gather reads it: a negative entry counted from the end (plus n), then a unit axis. -/
def wrapped (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- A node-index array as a scatter reads it: a unit axis. -/
def column (v : (⟨S1700000, .i32⟩ : BufTy).Contents (Elt F)) : (⟨S1700000x1, .i32⟩ : BufTy).Contents (Elt F) :=
  broadcastInDim S1700000x1 ![0] bcast_S1700000_S1700000x1_0 v

/-- deg^(-1/2): ones scatter-added at the edges' targets, raised to the power -1/2. -/
def invSqrtDeg (d : (⟨S1700000, .i32⟩ : BufTy).Contents (Elt F)) : (⟨S100000, .f32⟩ : BufTy).Contents (Elt F) :=
  Host.powf (Host.scatterAdd scatter_S100000_S1700000x1_S1700000_n_0_0_1 (broadcastInDim S100000 ![] bcast_S_S100000 (constant S_ .f32 0x00000000#32)) (column d) (broadcastInDim S1700000 ![] bcast_S_S1700000 (constant S_ .f32 0x3F800000#32))) (broadcastInDim S100000 ![] bcast_S_S100000 (constant S_ .f32 0xBF000000#32))

/-- The weight of every edge: deg(src)^(-1/2) · deg(dst)^(-1/2). -/
def edgeNorm (s d : (⟨S1700000, .i32⟩ : BufTy).Contents (Elt F)) : (⟨S1700000, .f32⟩ : BufTy).Contents (Elt F) :=
  mulf (Host.gather gather_S100000_S1700000x1_S1700000_n_0_n_n_0_1_1 (invSqrtDeg (F := F) d) (wrapped (F := F) s)) (Host.gather gather_S100000_S1700000x1_S1700000_n_0_n_n_0_1_1 (invSqrtDeg (F := F) d) (wrapped (F := F) d))

/-- One propagation of 128-entry rows along the edges: gather at the sources, scale by the edge weights, scatter-add
    at the targets, add the bias to every row. -/
def spread128 (h : (⟨S100000x128, .f32⟩ : BufTy).Contents (Elt F)) (s d : (⟨S1700000, .i32⟩ : BufTy).Contents (Elt F)) (nrm : (⟨S1700000, .f32⟩ : BufTy).Contents (Elt F)) (b : (⟨S128, .f32⟩ : BufTy).Contents (Elt F)) : (⟨S100000x128, .f32⟩ : BufTy).Contents (Elt F) :=
  addf (Host.scatterAdd scatter_S100000x128_S1700000x1_S1700000x128_1_0_0_1 (broadcastInDim S100000x128 ![] bcast_S_S100000x128 (constant S_ .f32 0x00000000#32)) (column (F := F) d) (mulf (Host.gather gather_S100000x128_S1700000x1_S1700000x128_1_0_n_n_0_1_1128 h (wrapped (F := F) s)) (broadcastInDim S1700000x128 ![0, 1] bcast_S1700000x1_S1700000x128_0_1 (broadcastInDim S1700000x1 ![0] bcast_S1700000_S1700000x1_0 nrm)))) (broadcastInDim S100000x128 ![0, 1] bcast_S1x128_S100000x128_0_1 (broadcastInDim S1x128 ![1] bcast_S128_S1x128_1 b))

/-- max(·, 0), entry by entry. -/
def relu (h : (⟨S100000x128, .f32⟩ : BufTy).Contents (Elt F)) : (⟨S100000x128, .f32⟩ : BufTy).Contents (Elt F) :=
  maximumf h (broadcastInDim S100000x128 ![] bcast_S_S100000x128 (constant S_ .f32 0x00000000#32))

/-- The same propagation of 40-entry rows. -/
def spread40 (h : (⟨S100000x40, .f32⟩ : BufTy).Contents (Elt F)) (s d : (⟨S1700000, .i32⟩ : BufTy).Contents (Elt F)) (nrm : (⟨S1700000, .f32⟩ : BufTy).Contents (Elt F)) (b : (⟨S40, .f32⟩ : BufTy).Contents (Elt F)) : (⟨S100000x40, .f32⟩ : BufTy).Contents (Elt F) :=
  addf (Host.scatterAdd scatter_S100000x40_S1700000x1_S1700000x40_1_0_0_1 (broadcastInDim S100000x40 ![] bcast_S_S100000x40 (constant S_ .f32 0x00000000#32)) (column (F := F) d) (mulf (Host.gather gather_S100000x40_S1700000x1_S1700000x40_1_0_n_n_0_1_140 h (wrapped (F := F) s)) (broadcastInDim S1700000x40 ![0, 1] bcast_S1700000x1_S1700000x40_0_1 (broadcastInDim S1700000x1 ![0] bcast_S1700000_S1700000x1_0 nrm)))) (broadcastInDim S100000x40 ![0, 1] bcast_S1x40_S100000x40_0_1 (broadcastInDim S1x40 ![1] bcast_S40_S1x40_1 b))

/-- The first layer after its product `h1 = x · W1`: propagate, add the bias, clamp at zero. -/
def layer1 (h1 : (⟨S100000x128, .f32⟩ : BufTy).Contents (Elt F)) (e : (⟨S2x1600000, .i32⟩ : BufTy).Contents (Elt F)) (b1 : (⟨S128, .f32⟩ : BufTy).Contents (Elt F)) : (⟨S100000x128, .f32⟩ : BufTy).Contents (Elt F) :=
  relu (spread128 h1 (srcOf (F := F) e) (dstOf (F := F) e) (edgeNorm (srcOf (F := F) e) (dstOf (F := F) e)) b1)

/-- The second layer after its product `h2 = layer1 · W2`: propagate, add the bias. -/
def layer2 (h2 : (⟨S100000x40, .f32⟩ : BufTy).Contents (Elt F)) (e : (⟨S2x1600000, .i32⟩ : BufTy).Contents (Elt F)) (b2 : (⟨S40, .f32⟩ : BufTy).Contents (Elt F)) : (⟨S100000x40, .f32⟩ : BufTy).Contents (Elt F) :=
  spread40 h2 (srcOf (F := F) e) (dstOf (F := F) e) (edgeNorm (srcOf (F := F) e) (dstOf (F := F) e)) b2

end Cert.ReferenceIdeal.Graph

end
-- ==== Proof.HostFold.lean ====
/-
  THE KERNEL PROGRAM'S HOST STRETCHES, read for ANY contents `W` of the buffers at the stretch's start. Around its two
  regions the kernel's program runs the same graph glue as the reference, split in three stretches:

    before region 0   the edges' end points with self loops (`srcOf`, `dstOf`) and the edge weights (`edgeNorm`), from
                      the edge array alone;
    between them      the first propagation, bias and clamp (`relu (spread128 …)`) of region 0's result array;
    after region 1    the second propagation and bias (`spread40 …`) of region 1's result array;

  each of them the composition of that stretch's operations in order, which is the shared function's definition
  (`Graph`, stated once over the reference's spelling: the operations, their literals and their dimension records are
  the same in both programs). A buffer a stretch does not write keeps its contents (`kept…`). No operation is opened.
-/
import proofs.«180636_j73332271612103_1_alg».proof.Proof.Gen.KernelIdeal.Launch
import proofs.«180636_j73332271612103_1_alg».proof.Proof.Graph
import Idealize.ShloMosaic.Lib.StableHlo.Run

set_option maxRecDepth 16384

noncomputable section

namespace Cert.KernelIdeal.HostFold

open Idealize.ShloMosaic Idealize.ShloMosaic.TcCoe Idealize.SL.Sem Idealize.ShloMosaic.StableHlo
open Cert.KernelIdeal Cert.KernelIdeal.Gen

variable {F : FTy → Type} [FloatOps F] (W : Valuation τ sig (Elt F))

/-! ## Before region 0: the edges -/

theorem src_eq : after hostOps0 W (Proc.devRef .tc main_v3) = Cert.ReferenceIdeal.Graph.srcOf (W (Proc.devRef .tc main_arg1)) := by
  after_results_simp
  rfl
theorem dst_eq : after hostOps0 W (Proc.devRef .tc main_v6) = Cert.ReferenceIdeal.Graph.dstOf (W (Proc.devRef .tc main_arg1)) := by
  after_results_simp
  rfl
theorem norm_eq : after hostOps0 W (Proc.devRef .tc main_v27)
    = Cert.ReferenceIdeal.Graph.edgeNorm (Cert.ReferenceIdeal.Graph.srcOf (W (Proc.devRef .tc main_arg1))) (Cert.ReferenceIdeal.Graph.dstOf (W (Proc.devRef .tc main_arg1))) := by
  after_results_simp
  rfl
theorem kept0_main_arg0 : after hostOps0 W (Proc.devRef .tc main_arg0) = W (Proc.devRef .tc main_arg0) := by
  after_results_simp
theorem kept0_main_arg2 : after hostOps0 W (Proc.devRef .tc main_arg2) = W (Proc.devRef .tc main_arg2) := by
  after_results_simp
theorem kept0_main_arg3 : after hostOps0 W (Proc.devRef .tc main_arg3) = W (Proc.devRef .tc main_arg3) := by
  after_results_simp
theorem kept0_main_arg4 : after hostOps0 W (Proc.devRef .tc main_arg4) = W (Proc.devRef .tc main_arg4) := by
  after_results_simp
theorem kept0_main_arg5 : after hostOps0 W (Proc.devRef .tc main_arg5) = W (Proc.devRef .tc main_arg5) := by
  after_results_simp

/-! ## Between the regions: the first propagation -/

theorem mid_eq : after hostOps1_1 (after hostOps1 W) (Proc.devRef .tc main_v45)
    = Cert.ReferenceIdeal.Graph.relu (Cert.ReferenceIdeal.Graph.spread128 (W (Proc.devRef .tc main_v28)) (W (Proc.devRef .tc main_v3)) (W (Proc.devRef .tc main_v6)) (W (Proc.devRef .tc main_v27)) (W (Proc.devRef .tc main_arg3))) := by
  after_results_simp
  rfl
theorem kept1_main_v3 : after hostOps1_1 (after hostOps1 W) (Proc.devRef .tc main_v3) = W (Proc.devRef .tc main_v3) := by
  after_results_simp
theorem kept1_main_v6 : after hostOps1_1 (after hostOps1 W) (Proc.devRef .tc main_v6) = W (Proc.devRef .tc main_v6) := by
  after_results_simp
theorem kept1_main_v27 : after hostOps1_1 (after hostOps1 W) (Proc.devRef .tc main_v27) = W (Proc.devRef .tc main_v27) := by
  after_results_simp
theorem kept1_main_arg4 : after hostOps1_1 (after hostOps1 W) (Proc.devRef .tc main_arg4) = W (Proc.devRef .tc main_arg4) := by
  after_results_simp
theorem kept1_main_arg5 : after hostOps1_1 (after hostOps1 W) (Proc.devRef .tc main_arg5) = W (Proc.devRef .tc main_arg5) := by
  after_results_simp

/-! ## After region 1: the second propagation -/

theorem tail_eq : after hostOps2 W (Proc.devRef .tc main_v62)
    = Cert.ReferenceIdeal.Graph.spread40 (W (Proc.devRef .tc main_v46)) (W (Proc.devRef .tc main_v3)) (W (Proc.devRef .tc main_v6)) (W (Proc.devRef .tc main_v27)) (W (Proc.devRef .tc main_arg5)) := by
  after_results_simp
  rfl

end Cert.KernelIdeal.HostFold

end
-- ==== Proof.KernelValue.lean ====
/-
  THE KERNEL PROGRAM'S RESULT on the extended reals. The program is: a stretch of host operations (the edges and their
  weights), region 0 (x · W1 in blocks of rows), a stretch (propagate, add b1, clamp), region 1 (· W2 in blocks of rows),
  a last stretch (propagate, add b2). The buffers' contents at the six boundaries are a fold `W0 … W6` from the launch
  memory; what follows reads the result's buffer through that fold, boundary by boundary:

    * each region leaves its result array at the dense product of its operand arrays as it found them
      (`Rows0.final`, `Rows1.final`) and every other buffer as it was;
    * each host stretch computes the shared graph function of what it finds (`HostFold`) and keeps what it does not write;
    * the arguments are never written, so every read of one walks back to the launch memory.

  Hence `out_eq`: the result is  layer2 (rowProd (layer1 (rowProd x W1) e b1) W2) e b2  of the launch arguments, the
  form the reference's result takes. `run_out` is the program's run with the result's buffer named in its post.
-/
import proofs.«180636_j73332271612103_1_alg».proof.Proof.Gen.KernelIdeal.Frame
import proofs.«180636_j73332271612103_1_alg».proof.Proof.Rows0
import proofs.«180636_j73332271612103_1_alg».proof.Proof.Rows1
import proofs.«180636_j73332271612103_1_alg».proof.Proof.HostFold
import proofs.«180636_j73332271612103_1_alg».proof.Proof.Graph
import proofs.«180636_j73332271612103_1_alg».proof.Proof.RowProduct

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Dense

/-! ## The run, with the result's buffer in its post -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result's buffer at the last
    boundary's contents and the arguments as launched: the launch over the program's six segments, the last thread
    state read against the final memory at the result's buffer too. -/
theorem run_out : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v62 (by decide))).trans rfl,
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Run

/-! ## The contents at the boundaries, on the extended reals -/

variable (m : (ℓ : Loc nD τ sig) → Buf (Elt Ideal) ℓ) (ρ : Dev nD → PrngReg)

/-! ### At region 0's exit -/

theorem W2_src (c : Dev nD) : W2 m ρ c (Proc.devRef .tc main_v3) = Cert.ReferenceIdeal.Graph.srcOf (m ((c : Thread nD τ).loc main_arg1)) :=
  (W2_of_ne m ρ c main_v3 (by decide)).trans (HostFold.src_eq (W0 m ρ c))
theorem W2_dst (c : Dev nD) : W2 m ρ c (Proc.devRef .tc main_v6) = Cert.ReferenceIdeal.Graph.dstOf (m ((c : Thread nD τ).loc main_arg1)) :=
  (W2_of_ne m ρ c main_v6 (by decide)).trans (HostFold.dst_eq (W0 m ρ c))
theorem W2_norm (c : Dev nD) : W2 m ρ c (Proc.devRef .tc main_v27) = Cert.ReferenceIdeal.Graph.edgeNorm (Cert.ReferenceIdeal.Graph.srcOf (m ((c : Thread nD τ).loc main_arg1))) (Cert.ReferenceIdeal.Graph.dstOf (m ((c : Thread nD τ).loc main_arg1))) :=
  (W2_of_ne m ρ c main_v27 (by decide)).trans (HostFold.norm_eq (W0 m ρ c))
theorem W2_arg3 (c : Dev nD) : W2 m ρ c (Proc.devRef .tc main_arg3) = (m ((c : Thread nD τ).loc main_arg3)) :=
  (W2_of_ne m ρ c main_arg3 (by decide)).trans (HostFold.kept0_main_arg3 (W0 m ρ c))
theorem W2_arg4 (c : Dev nD) : W2 m ρ c (Proc.devRef .tc main_arg4) = (m ((c : Thread nD τ).loc main_arg4)) :=
  (W2_of_ne m ρ c main_arg4 (by decide)).trans (HostFold.kept0_main_arg4 (W0 m ρ c))
theorem W2_arg5 (c : Dev nD) : W2 m ρ c (Proc.devRef .tc main_arg5) = (m ((c : Thread nD τ).loc main_arg5)) :=
  (W2_of_ne m ρ c main_arg5 (by decide)).trans (HostFold.kept0_main_arg5 (W0 m ρ c))

/-- Region 0's result array: x · W1. -/
theorem W2_h1 (c : Dev nD) : W2 m ρ c (Proc.devRef .tc main_v28) = rowProd (m ((c : Thread nD τ).loc main_arg0)) (m ((c : Thread nD τ).loc main_arg2)) := by
  refine (W2_arr m ρ c 2).trans ?_
  rw [Rows0.final (V1 m ρ) c]
  show rowProd (StableHlo.after hostOps0 (W0 m ρ c) (Proc.devRef .tc main_arg0)) (StableHlo.after hostOps0 (W0 m ρ c) (Proc.devRef .tc main_arg2)) = _
  rw [HostFold.kept0_main_arg0, HostFold.kept0_main_arg2]

/-! ### At region 1's entry and exit -/

/-- Region 1's left operand: the first layer. -/
theorem W4_h (c : Dev nD) : W4 m ρ c (Proc.devRef .tc main_v45)
    = Cert.ReferenceIdeal.Graph.layer1 (rowProd (m ((c : Thread nD τ).loc main_arg0)) (m ((c : Thread nD τ).loc main_arg2))) (m ((c : Thread nD τ).loc main_arg1)) (m ((c : Thread nD τ).loc main_arg3)) := by
  show StableHlo.after hostOps1_1 (StableHlo.after hostOps1 (W2 m ρ c)) (Proc.devRef .tc main_v45) = _
  rw [HostFold.mid_eq, W2_h1, W2_src, W2_dst, W2_norm, W2_arg3]
  rfl
theorem W4_arg4 (c : Dev nD) : W4 m ρ c (Proc.devRef .tc main_arg4) = (m ((c : Thread nD τ).loc main_arg4)) :=
  (HostFold.kept1_main_arg4 (W2 m ρ c)).trans (W2_arg4 m ρ c)

theorem W5_src (c : Dev nD) : W5 m ρ c (Proc.devRef .tc main_v3) = Cert.ReferenceIdeal.Graph.srcOf (m ((c : Thread nD τ).loc main_arg1)) :=
  (W5_of_ne m ρ c main_v3 (by decide)).trans ((HostFold.kept1_main_v3 (W2 m ρ c)).trans (W2_src m ρ c))
theorem W5_dst (c : Dev nD) : W5 m ρ c (Proc.devRef .tc main_v6) = Cert.ReferenceIdeal.Graph.dstOf (m ((c : Thread nD τ).loc main_arg1)) :=
  (W5_of_ne m ρ c main_v6 (by decide)).trans ((HostFold.kept1_main_v6 (W2 m ρ c)).trans (W2_dst m ρ c))
theorem W5_norm (c : Dev nD) : W5 m ρ c (Proc.devRef .tc main_v27) = Cert.ReferenceIdeal.Graph.edgeNorm (Cert.ReferenceIdeal.Graph.srcOf (m ((c : Thread nD τ).loc main_arg1))) (Cert.ReferenceIdeal.Graph.dstOf (m ((c : Thread nD τ).loc main_arg1))) :=
  (W5_of_ne m ρ c main_v27 (by decide)).trans ((HostFold.kept1_main_v27 (W2 m ρ c)).trans (W2_norm m ρ c))
theorem W5_arg5 (c : Dev nD) : W5 m ρ c (Proc.devRef .tc main_arg5) = (m ((c : Thread nD τ).loc main_arg5)) :=
  (W5_of_ne m ρ c main_arg5 (by decide)).trans ((HostFold.kept1_main_arg5 (W2 m ρ c)).trans (W2_arg5 m ρ c))

/-- Region 1's result array: the first layer · W2. -/
theorem W5_h2 (c : Dev nD) : W5 m ρ c (Proc.devRef .tc main_v46)
    = rowProd (Cert.ReferenceIdeal.Graph.layer1 (rowProd (m ((c : Thread nD τ).loc main_arg0)) (m ((c : Thread nD τ).loc main_arg2))) (m ((c : Thread nD τ).loc main_arg1)) (m ((c : Thread nD τ).loc main_arg3))) (m ((c : Thread nD τ).loc main_arg4)) := by
  refine (W5_arr m ρ c 2).trans ?_
  rw [Rows1.final (V4 m ρ) c]
  show rowProd (W4 m ρ c (Proc.devRef .tc main_v45)) (W4 m ρ c (Proc.devRef .tc main_arg4)) = _
  rw [W4_h, W4_arg4]

/-! ### The result -/

/-- THE RESULT'S BUFFER at the last boundary: both layers of the launch arguments. -/
theorem out_eq (c : Dev nD) : W6 m ρ c (Proc.devRef .tc main_v62)
    = Cert.ReferenceIdeal.Graph.layer2 (rowProd (Cert.ReferenceIdeal.Graph.layer1 (rowProd (m ((c : Thread nD τ).loc main_arg0)) (m ((c : Thread nD τ).loc main_arg2))) (m ((c : Thread nD τ).loc main_arg1)) (m ((c : Thread nD τ).loc main_arg3))) (m ((c : Thread nD τ).loc main_arg4))) (m ((c : Thread nD τ).loc main_arg1)) (m ((c : Thread nD τ).loc main_arg5)) := by
  show StableHlo.after hostOps2 (W5 m ρ c) (Proc.devRef .tc main_v62) = _
  rw [HostFold.tail_eq, W5_h2, W5_src, W5_dst, W5_norm, W5_arg5]
  rfl

/-- The program's run on the extended reals with the result at its closed form, the arguments as launched. -/
theorem run : θ_run defs (onTc (τ := τ) (main (F := Ideal))) ⟨m, fun _ => 0, ρ⟩ (fun r => ∀ c : Dev nD,
      r.2.mem ((c.tc : Thread nD τ).loc main_v62) = Cert.ReferenceIdeal.Graph.layer2 (rowProd (Cert.ReferenceIdeal.Graph.layer1 (rowProd (m ((c : Thread nD τ).loc main_arg0)) (m ((c : Thread nD τ).loc main_arg2))) (m ((c : Thread nD τ).loc main_arg1)) (m ((c : Thread nD τ).loc main_arg3))) (m ((c : Thread nD τ).loc main_arg4))) (m ((c : Thread nD τ).loc main_arg1)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (out_eq m ρ c), (h c).2⟩) (run_out (F := Ideal) m ρ)

end Cert.KernelIdeal.KValue

end
-- ==== Proof.RefValue.lean ====
/-
  THE REFERENCE'S RESULT. Its run ends with the result array at one composed term of the arguments. That term is the
  shared graph glue (`Graph.layer1`, `Graph.layer2`) around two `dot_general`s (`res_layers`: the same operations in
  the same order, so the two spellings are one term), and on the extended reals a `dot_general` contracting the left
  operand's columns with the right operand's rows is the dense product `Cert.Dense.rowProd`: entry (r, q) is the sum
  over the one contracted coordinate k of a(r, k) · w(k, q) (`dot1_eq`, `dot2_eq`). Hence `result_eq`:

      result = layer2 (rowProd (layer1 (rowProd x W1) e b1) W2) e b2 .
-/
import proofs.«180636_j73332271612103_1_alg».proof.Proof.Gen.ReferenceIdeal.Run
import proofs.«180636_j73332271612103_1_alg».proof.Proof.Gen.ReferenceIdeal.Read
import proofs.«180636_j73332271612103_1_alg».proof.Proof.Graph
import proofs.«180636_j73332271612103_1_alg».proof.Proof.RowProduct
import Idealize.ShloMosaic.Lib.ValueIdx
import Idealize.ShloMosaic.PureOps.Ideal.Laws

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value Cert.ReferenceIdeal.Read Cert.ReferenceIdeal.Graph Cert.Dense

set_option maxRecDepth 16384 in
/-- The run's result term is the two layers of graph glue around the two products, at any float instance. -/
theorem res_layers {F : FTy → Type} [FloatOps F] (m : (ℓ : Loc nD τ sig) → Buf (Elt F) ℓ) (c : Dev nD) :
    res_main_v62 (F := F) m c
      = layer2 (Host.dotGeneral dot_S100000x128_S128x40_S100000x40_1_0_0_1_n_n none
          (layer1 (Host.dotGeneral dot_S100000x128_S128x128_S100000x128_1_0_0_1_n_n none (m ((c.tc : Thread nD τ).loc main_arg0)) (m ((c.tc : Thread nD τ).loc main_arg2)))
            (m ((c.tc : Thread nD τ).loc main_arg1)) (m ((c.tc : Thread nD τ).loc main_arg3)))
          (m ((c.tc : Thread nD τ).loc main_arg4)))
        (m ((c.tc : Thread nD τ).loc main_arg1)) (m ((c.tc : Thread nD τ).loc main_arg5)) := by
  unfold res_main_v62 layer2 layer1 spread40 spread128 relu edgeNorm invSqrtDeg wrapped column srcOf dstOf
  rfl

/-- The first layer's `dot_general`, on the extended reals, is the dense product: its one contracted axis re-indexed by its coordinate. -/
theorem dot1_eq (a : FVec Ideal S100000x128 .f32) (w : FVec Ideal S128x128 .f32) :
    Host.dotGeneral (F := Ideal) dot_S100000x128_S128x128_S100000x128_1_0_0_1_n_n none a w = rowProd a w := by
  funext i
  simp only [Host.dotGeneral]
  rw [Ideal.dotGeneral_apply, ← Equiv.sum_comp (contrEquiv1 dot_S100000x128_S128x128_S100000x128_1_0_0_1_n_n 128 rfl rfl).symm]
  unfold rowProd
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx i ((contrEquiv1 dot_S100000x128_S128x128_S100000x128_1_0_0_1_n_n 128 rfl rfl).symm k)
      = ix2 (⟨(i 0).val, idx2_lt0 i⟩ : Fin 100000) k := funext fun a => Fin.ext (by
    match a with
    | ⟨0, _⟩ => exact lhs_main_v28_0 _ _
    | ⟨1, _⟩ => exact (lhs_main_v28_1 _ _).trans hk)
  have er : dot_S100000x128_S128x128_S100000x128_1_0_0_1_n_n.rhsIdx i ((contrEquiv1 dot_S100000x128_S128x128_S100000x128_1_0_0_1_n_n 128 rfl rfl).symm k)
      = ix2 k (⟨(i 1).val, idx2_lt1 i⟩ : Fin 128) := funext fun a => Fin.ext (by
    match a with
    | ⟨0, _⟩ => exact (rhs_main_v28_0 _ _).trans hk
    | ⟨1, _⟩ => exact rhs_main_v28_1 _ _)
  rw [el, er]

/-- The second layer's `dot_general`, likewise. -/
theorem dot2_eq (a : FVec Ideal S100000x128 .f32) (w : FVec Ideal S128x40 .f32) :
    Host.dotGeneral (F := Ideal) dot_S100000x128_S128x40_S100000x40_1_0_0_1_n_n none a w = rowProd a w := by
  funext i
  simp only [Host.dotGeneral]
  rw [Ideal.dotGeneral_apply, ← Equiv.sum_comp (contrEquiv1 dot_S100000x128_S128x40_S100000x40_1_0_0_1_n_n 128 rfl rfl).symm]
  unfold rowProd
  refine Finset.sum_congr rfl fun k _ => ?_
  have hk := contrEquiv1_symm_val dot_S100000x128_S128x40_S100000x40_1_0_0_1_n_n 128 rfl rfl k
  have el : dot_S100000x128_S128x40_S100000x40_1_0_0_1_n_n.lhsIdx i ((contrEquiv1 dot_S100000x128_S128x40_S100000x40_1_0_0_1_n_n 128 rfl rfl).symm k)
      = ix2 (⟨(i 0).val, idx2_lt0 i⟩ : Fin 100000) k := funext fun a => Fin.ext (by
    match a with
    | ⟨0, _⟩ => exact lhs_main_v46_0 _ _
    | ⟨1, _⟩ => exact (lhs_main_v46_1 _ _).trans hk)
  have er : dot_S100000x128_S128x40_S100000x40_1_0_0_1_n_n.rhsIdx i ((contrEquiv1 dot_S100000x128_S128x40_S100000x40_1_0_0_1_n_n 128 rfl rfl).symm k)
      = ix2 k (⟨(i 1).val, idx2_lt1 i⟩ : Fin 40) := funext fun a => Fin.ext (by
    match a with
    | ⟨0, _⟩ => exact (rhs_main_v46_0 _ _).trans hk
    | ⟨1, _⟩ => exact rhs_main_v46_1 _ _)
  rw [el, er]

/-- THE REFERENCE'S RESULT on the extended reals, in the form the kernel's result takes. -/
theorem result_eq (m : (ℓ : Loc nD τ sig) → Buf (Elt Ideal) ℓ) (c : Dev nD) :
    res_main_v62 (F := Ideal) m c
      = layer2 (rowProd
          (layer1 (rowProd (m ((c.tc : Thread nD τ).loc main_arg0)) (m ((c.tc : Thread nD τ).loc main_arg2)))
            (m ((c.tc : Thread nD τ).loc main_arg1)) (m ((c.tc : Thread nD τ).loc main_arg3)))
          (m ((c.tc : Thread nD τ).loc main_arg4)))
        (m ((c.tc : Thread nD τ).loc main_arg1)) (m ((c.tc : Thread nD τ).loc main_arg5)) := by
  rw [res_layers, dot1_eq, dot2_eq]

end Cert.ReferenceIdeal.RefValue

end
-- ==== Proof.lean ====
/-
  A two-layer graph convolution over 100000 nodes and 1600000 edges, the kernel program against its jnp reference,
  equal on the extended reals:

      out = spread (relu (spread (x · W1) b1) · W2) b2 ,

  where `spread h b` gathers the rows of `h` at the edges' sources, scales each by its edge's weight
  deg(src)^(-1/2) · deg(dst)^(-1/2), scatter-adds them at the edges' targets and adds the bias `b` to every row.

  The two programs run the SAME host operations for everything but the two dense products "·" — the same operations,
  literals and dimension numbers in the same order — so that part is carried as named functions that are never opened
  (Proof/Graph.lean). They differ only in how a product is computed: the reference by one `dot_general`, the kernel
  program by a region whose grid walks the left operand in 20 blocks of 5000 rows, each multiplied (after a narrowing
  to bf16 that is the identity here) by the whole right operand into a zero accumulator. On the extended reals both are
  the dense product (Proof/RowProduct.lean): entry (r, q) is the sum over k of a(r, k) · w(k, q), row r of the product
  reads row r of the left operand only, and the 20 blocks tile the rows (Proof/Rows0.lean, Proof/Rows1.lean for the
  regions; Proof/RefValue.lean for the reference). Nothing here needs the inputs finite: the only laws used are
  0 + s = s and the re-indexing of a finite sum, which hold on all extended reals.

  Proof/HostFold.lean reads the kernel program's three host stretches as the shared functions, Proof/KernelValue.lean
  follows the result's buffer through the program's boundaries to the closed form above, and this file assembles the
  five claims: the three frames (the kernel programs' from their generated frame certificates, the reference's from
  its run), `preserves` (nothing was rewritten by the idealization: `True`), and `algebraic`.
-/
import proofs.«180636_j73332271612103_1_alg».proof.Defs
import proofs.«180636_j73332271612103_1_alg».proof.Proof.Gen.Kernel
import proofs.«180636_j73332271612103_1_alg».proof.Proof.Gen.Kernel.Frame
import proofs.«180636_j73332271612103_1_alg».proof.Proof.Gen.KernelIdeal
import proofs.«180636_j73332271612103_1_alg».proof.Proof.Gen.KernelIdeal.Frame
import proofs.«180636_j73332271612103_1_alg».proof.Proof.Gen.ReferenceIdeal
import proofs.«180636_j73332271612103_1_alg».proof.Proof.Gen.Pre_finite_inputs
import proofs.«180636_j73332271612103_1_alg».proof.Proof.Gen.ReferenceIdeal.Run
import proofs.«180636_j73332271612103_1_alg».proof.Proof.Gen.ReferenceIdeal.Read
import proofs.«180636_j73332271612103_1_alg».proof.Proof.KernelValue
import proofs.«180636_j73332271612103_1_alg».proof.Proof.RefValue
import Idealize.ShloMosaic.Adequacy
import Idealize.ShloMosaic.Init

noncomputable section

namespace Cert.Proof

open Idealize.ShloMosaic Idealize.SL.Sem

/-- The kernel program as printed runs and leaves its arguments unchanged. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result at both layers of the arguments
    (`KValue.run`, `RefValue.result_eq`): one term once the arguments' agreement is rewritten. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
